-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S8000000x2 : Shape := ⟨2, ![8000000, 2]⟩
abbrev S8000000 : Shape := ⟨1, ![8000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S2000000x3 .f32) (main_arg1 : IVec S8000000x2 32) (main_arg2 : FVec F S8000000 .f32) (main_arg3 : FVec F S8000000 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S8000000 .f32 := Host.absf main_arg2
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg3
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  main_v13
-- ==== Kernel.lean ====
abbrev S2000000x3 : Shape := ⟨2, ![2000000, 3]⟩
abbrev S8000000x2 : Shape := ⟨2, ![8000000, 2]⟩
abbrev S8000000 : Shape := ⟨1, ![8000000]⟩
abbrev S8000000x1 : Shape := ⟨2, ![8000000, 1]⟩
abbrev S_ : Shape := ⟨0, ![]⟩
abbrev S8000000x3 : Shape := ⟨2, ![8000000, 3]⟩
abbrev S1x1 : Shape := ⟨2, ![1, 1]⟩
abbrev S5000x3 : Shape := ⟨2, ![5000, 3]⟩
abbrev S5000x1 : Shape := ⟨2, ![5000, 1]⟩
abbrev S5000 : Shape := ⟨1, ![5000]⟩
abbrev S1 : Shape := ⟨1, ![1]⟩

abbrev nBuf : Space → Nat
  | .hbm => 30
  | .vmem => 10
  | .smem => 0
  | _ => 0

abbrev bufTy : (tb : Table) → Fin (tcTables nBuf tb) → BufTy
  | .hbm, ⟨0, _⟩ => ⟨S2000000x3, .f32⟩
  | .hbm, ⟨1, _⟩ => ⟨S8000000x2, .i32⟩
  | .hbm, ⟨2, _⟩ => ⟨S8000000, .f32⟩
  | .hbm, ⟨3, _⟩ => ⟨S8000000, .f32⟩
  | .hbm, ⟨4, _⟩ => ⟨S8000000x1, .i32⟩
  | .hbm, ⟨5, _⟩ => ⟨S8000000, .i32⟩
  | .hbm, ⟨6, _⟩ => ⟨S8000000x1, .i32⟩
  | .hbm, ⟨7, _⟩ => ⟨S8000000, .i32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S8000000x3, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000x3, .f32⟩
  | .hbm, ⟨26, _⟩ => ⟨S8000000x1, .f32⟩
  | .hbm, ⟨27, _⟩ => ⟨S8000000x1, .f32⟩
  | .hbm, ⟨28, _⟩ => ⟨S1x1, .f32⟩
  | .hbm, ⟨29, _⟩ => ⟨S_, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S1x1, .f32⟩
  | .local _ .vmem, ⟨9, _⟩ => ⟨S1x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![1600], ![false]⟩

def k0_cond2 (i : grid0.Coords) : BitVec 1 :=
  let arg0 : BitVec 32 := BitVec.ofNat 32 (i 0).val
  let c1599_i32 : BitVec 32 := 1599#32
  let v30 : BitVec 1 := Scalar.cmpi .eq arg0 c1599_i32
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S8000000x1 : S8000000.ShapeCasts S8000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  reduces_S5000x3_S5000 : S5000x3.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x1_S1 : S5000x1.Reduces [0] S1
  shapeCasts_S1_S1x1 : S1.ShapeCasts S1x1
  shapeCasts_S1x1_S_ : S1x1.ShapeCasts S_
  gather_S2000000x3_S8000000x1_S8000000x3_1_0_n_n_0_1_13_wf : GatherDims.WF S2000000x3 S8000000x1 S8000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S8000000x3.size a
  hwx0_0 : ∀ i : grid0.Coords, EltTy.bits .f32 = 32 ∨ (Rect.block (s := S8000000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S8000000x3.size a
  hwx0_1 : ∀ i : grid0.Coords, EltTy.bits .f32 = 32 ∨ (Rect.block (s := S8000000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S8000000x1.size a
  hwx0_2 : ∀ i : grid0.Coords, EltTy.bits .f32 = 32 ∨ (Rect.block (s := S8000000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S8000000x1.size a
  hwx0_3 : ∀ i : grid0.Coords, EltTy.bits .f32 = 32 ∨ (Rect.block (s := S8000000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S2000000x3_S8000000x1_S8000000x3_1_0_n_n_0_1_13 : GatherDims S2000000x3 S8000000x1 S8000000x3 where
  offsetDims := [1]
  collapsedSliceDims := [0]
  operandBatchingDims := []
  startIndicesBatchingDims := []
  startIndexMap := [0]
  indexVectorDim := 1
  sliceSizes := ![1, 3]
  wf := gather_S2000000x3_S8000000x1_S8000000x3_1_0_n_n_0_1_13_wf

abbrev win0_0 : Pipeline.Window sig grid0 :=
  Pipeline.Window.ofSpec (Memref.whole main_v10) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2000000x3 : Shape := ⟨2, ![2000000, 3]⟩
abbrev S8000000x2 : Shape := ⟨2, ![8000000, 2]⟩
abbrev S8000000 : Shape := ⟨1, ![8000000]⟩
abbrev S8000000x1 : Shape := ⟨2, ![8000000, 1]⟩
abbrev S_ : Shape := ⟨0, ![]⟩
abbrev S8000000x3 : Shape := ⟨2, ![8000000, 3]⟩

abbrev nBuf : Space → Nat
  | .hbm => 41
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S8000000x2, .i32⟩
  | .hbm, ⟨2, _⟩ => ⟨S8000000, .f32⟩
  | .hbm, ⟨3, _⟩ => ⟨S8000000, .f32⟩
  | .hbm, ⟨4, _⟩ => ⟨S8000000x1, .i32⟩
  | .hbm, ⟨5, _⟩ => ⟨S8000000, .i32⟩
  | .hbm, ⟨6, _⟩ => ⟨S_, .i32⟩
  | .hbm, ⟨7, _⟩ => ⟨S8000000, .i32⟩
  | .hbm, ⟨8, _⟩ => ⟨S8000000, .i1⟩
  | .hbm, ⟨9, _⟩ => ⟨S_, .i32⟩
  | .hbm, ⟨10, _⟩ => ⟨S8000000, .i32⟩
  | .hbm, ⟨11, _⟩ => ⟨S8000000, .i32⟩
  | .hbm, ⟨12, _⟩ => ⟨S8000000, .i32⟩
  | .hbm, ⟨13, _⟩ => ⟨S8000000x1, .i32⟩
  | .hbm, ⟨14, _⟩ => ⟨S8000000x3, .f32⟩
  | .hbm, ⟨15, _⟩ => ⟨S8000000x1, .i32⟩
  | .hbm, ⟨16, _⟩ => ⟨S8000000, .i32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000x3, .f32⟩
  | .hbm, ⟨26, _⟩ => ⟨S8000000x3, .f32⟩
  | .hbm, ⟨27, _⟩ => ⟨S8000000x3, .f32⟩
  | .hbm, ⟨28, _⟩ => ⟨S_, .f32⟩
  | .hbm, ⟨29, _⟩ => ⟨S8000000, .f32⟩
  | .hbm, ⟨30, _⟩ => ⟨S_, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S8000000, .f32⟩
  | .hbm, ⟨35, _⟩ => ⟨S8000000, .f32⟩
  | .hbm, ⟨36, _⟩ => ⟨S8000000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S8000000x2_S8000000x1_0_0 : S8000000x2.Slices ![0, 0] S8000000x1
  shapeCasts_S8000000x1_S8000000 : S8000000x1.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S8000000x2_S8000000x1_0_1 : S8000000x2.Slices ![0, 1] S8000000x1
  reducesTo_S8000000x3_S8000000_d1 : S8000000x3.ReducesTo [1] S8000000
  h_S_ : 0 < S_.numel
  reducesTo_S8000000_S_d0 : S8000000.ReducesTo [0] S_
  gather_S2000000x3_S8000000x1_S8000000x3_1_0_n_n_0_1_13_wf : GatherDims.WF S2000000x3 S8000000x1 S8000000x3 [1] [0] [] [0] [] 1 ![1, 3]

variable [Facts₀]

def gather_S2000000x3_S8000000x1_S8000000x3_1_0_n_n_0_1_13 : GatherDims S2000000x3 S8000000x1 S8000000x3 where
  offsetDims := [1]
  collapsedSliceDims := [0]
  operandBatchingDims := []
  startIndicesBatchingDims := []
  startIndexMap := [0]
  indexVectorDim := 1
  sliceSizes := ![1, 3]
  wf := gather_S2000000x3_S8000000x1_S8000000x3_1_0_n_n_0_1_13_wf

class Facts : Prop extends Facts₀ where

variable [Facts]
-- ==== Proof.BodyPieces.lean ====
/-
  What the kernel body leaves behind in each of its three control cases, as the body's own arithmetic.
  The body keeps a running total in a one-entry scratch buffer. At the first grid point it first resets the
  scratch to the reset payload, reads that back, and stores the accumulation payload of the point's four input
  blocks and the value read back; at every later point it stores the accumulation payload of the blocks and of
  what the point before left; at the last point it also copies the scratch, just written, to the output block.
  Each buffer is stored whole, through the rectangle at zero offsets of the buffer's own sizes, so the last
  store's payload is what the buffer holds, and each load of a whole buffer reads its contents.
-/
import proofs.«162063_j10230612099765_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyPieces

open Cert.KernelIdeal Cert.KernelIdeal.Gen

variable {F : FTy → Type} [FloatOps F]

theorem hz : (![0, 0] : Fin 2 → Nat) = fun _ => 0 := funext fun a => by fin_cases a <;> rfl

/-- First point: the scratch ends at the accumulation of the point's blocks over the reset value. -/
theorem scratch_first (c : Dev nD) (i : grid0.Coords) (a1 : Memref sig .tc .vmem S5000x3 .f32) (h1 : a1.IsWhole)
    (a2 : Memref sig .tc .vmem S5000x3 .f32) (h2 : a2.IsWhole) (a3 : Memref sig .tc .vmem S5000x1 .f32) (h3 : a3.IsWhole)
    (a4 : Memref sig .tc .vmem S5000x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 : Vec F S5000x3 .f32) (x2 x3 : Vec F S5000x1 .f32) :
    sout0_A_0 c i a1 h1 a2 h2 a3 h3 a4 h4 a5 h5 a6 h6 hc0 hc1 x0 x1 x2 x3 = k0_pay2 x0 x1 x2 x3 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S5000x3) hz, View.ld_unit_zero (S := S5000x1) hz]

/-- A middle point: the scratch ends at the accumulation of the point's blocks over what it held. -/
theorem scratch_middle (c : Dev nD) (i : grid0.Coords) (a1 : Memref sig .tc .vmem S5000x3 .f32) (h1 : a1.IsWhole)
    (a2 : Memref sig .tc .vmem S5000x3 .f32) (h2 : a2.IsWhole) (a3 : Memref sig .tc .vmem S5000x1 .f32) (h3 : a3.IsWhole)
    (a4 : Memref sig .tc .vmem S5000x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 : Vec F S5000x3 .f32) (x2 x3 : Vec F S5000x1 .f32) (xs0 : Vec F S1x1 .f32) :
    sout0_B_0 c i a1 h1 a2 h2 a3 h3 a4 h4 a5 h5 a6 h6 hc0 hc1 x0 x1 x2 x3 xs0 = k0_pay2 x0 x1 x2 x3 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  rw [View.canon_unit_zero hz]
  simp only [View.readAt_eq_ld, h1.read_unread, h2.read_unread, h3.read_unread, h4.read_unread, h6.read_unread,
    View.ld_unit_zero (S := S5000x3) hz, View.ld_unit_zero (S := S5000x1) hz, View.ld_unit_zero (S := S1x1) hz]

/-- The last point: the scratch ends at the accumulation of the point's blocks over what it held, -/
theorem scratch_last (c : Dev nD) (i : grid0.Coords) (a1 : Memref sig .tc .vmem S5000x3 .f32) (h1 : a1.IsWhole)
    (a2 : Memref sig .tc .vmem S5000x3 .f32) (h2 : a2.IsWhole) (a3 : Memref sig .tc .vmem S5000x1 .f32) (h3 : a3.IsWhole)
    (a4 : Memref sig .tc .vmem S5000x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S5000x3 .f32) (x2 x3 : Vec F S5000x1 .f32) (xs0 : Vec F S1x1 .f32) :
    sout0_C_0 c i a1 h1 a2 h2 a3 h3 a4 h4 a5 h5 a6 h6 hc0 hc1 x0 x1 x2 x3 xs0 = k0_pay2 x0 x1 x2 x3 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h3.read_unread, h4.read_unread, h6.read_unread,
    View.ld_unit_zero (S := S5000x3) hz, View.ld_unit_zero (S := S5000x1) hz, View.ld_unit_zero (S := S1x1) hz]

/-- and the output block is the scratch read back: the same value. -/
theorem out_last (c : Dev nD) (i : grid0.Coords) (a1 : Memref sig .tc .vmem S5000x3 .f32) (h1 : a1.IsWhole)
    (a2 : Memref sig .tc .vmem S5000x3 .f32) (h2 : a2.IsWhole) (a3 : Memref sig .tc .vmem S5000x1 .f32) (h3 : a3.IsWhole)
    (a4 : Memref sig .tc .vmem S5000x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 : Vec F S5000x3 .f32) (x2 x3 : Vec F S5000x1 .f32) (xs0 : Vec F S1x1 .f32) :
    out0_C_4 c i a1 h1 a2 h2 a3 h3 a4 h4 a5 h5 a6 h6 hc0 hc1 x0 x1 x2 x3 xs0 = k0_pay2 x0 x1 x2 x3 xs0 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S5000x3) hz, View.ld_unit_zero (S := S5000x1) hz, View.ld_unit_zero (S := S1x1) hz]

end Cert.KernelIdeal.BodyPieces

end
-- ==== Proof.SumLaws.lean ====
/-
  Laws of finite sums of extended reals used to compare a sum taken tile by tile, each tile's sum
  scaled by a factor, with the same factor times the sum over all the entries at once.
  • a nonnegative finite factor distributes over a finite sum (on the extended reals this needs the
    factor's sign and finiteness: with a negative or infinite factor `⊤ + ⊥ = ⊥` breaks it);
  • the sums over `T` consecutive tiles of `R` entries add up to the sum over the first `R * T` entries;
  • the word `0x3F000000` denotes one half, a nonnegative finite factor.
-/
import Idealize.ShloMosaic.PureOps.Ideal.Laws

noncomputable section

open scoped BigOperators

namespace Cert.SumLaws

open Idealize.ShloMosaic

/-- A nonnegative factor other than `⊤` distributes over a finite sum of extended reals. -/
theorem mul_sum_of_nonneg {ι : Type*} (c : EReal) (h0 : 0 ≤ c) (htop : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 htop, ih]

/-- `T` consecutive tiles of `R` entries each are the first `R * T` entries. -/
theorem sum_tiles (g : ℕ → EReal) (R : ℕ) :
    ∀ T : ℕ, ∑ t ∈ Finset.range T, ∑ r ∈ Finset.range R, g (R * t + r) = ∑ e ∈ Finset.range (R * T), g e
  | 0 => by simp
  | T + 1 => by
    rw [Finset.sum_range_succ, sum_tiles g R T, Nat.mul_succ, Finset.sum_range_add]

/-- The sum over the tiles of the scaled tile sums is the scaled sum over all the entries. -/
theorem sum_scaled_tiles (c : EReal) (h0 : 0 ≤ c) (htop : c ≠ ⊤) (g : ℕ → EReal) (R T : ℕ) :
    ∑ t ∈ Finset.range T, c * ∑ r ∈ Finset.range R, g (R * t + r) = c * ∑ e ∈ Finset.range (R * T), g e := by
  rw [← sum_tiles g R T, mul_sum_of_nonneg c h0 htop]

/-- The word `0x3F000000` denotes one half. -/
theorem half_eq : Ideal.ofBits .f32 0x3F000000#32 = ((1 / 2 : ℝ) : EReal) := by
  simp [Ideal.ofBits, Ideal.ieee]
  rw [← EReal.coe_mul]
  exact congrArg _ (by norm_num)

theorem half_nonneg : (0 : EReal) ≤ Ideal.ofBits .f32 0x3F000000#32 := by
  rw [half_eq]; exact_mod_cast (by norm_num : (0 : ℝ) ≤ 1 / 2)

theorem half_ne_top : Ideal.ofBits .f32 0x3F000000#32 ≠ ⊤ := by
  rw [half_eq]; exact EReal.coe_ne_top _

end Cert.SumLaws

end
-- ==== Proof.EnergySpec.lean ====
/-
  The spring energy as one function of four arrays, and the two ways of summing it.
  An edge `e` joins two gathered points `A e`, `B e` of three coordinates each, has rest length `L e` and
  stiffness `K e`; its term is `K e · (√(|A e − B e|² + ε) − L e)²`, written `(k · dl) · dl` as both programs
  multiply it. The energy is one half of the sum of the 8,000,000 terms. Taken tile by tile — 1,600 tiles of
  5,000 edges, each tile's sum halved and added to a running total that starts at zero — it is the same
  extended real, because one half is a nonnegative finite factor and so distributes over the sum
  (`SumLaws.sum_scaled_tiles`); no finiteness of the entries is needed.
-/
import proofs.«162063_j10230612099765_2_alg».proof.Proof.SumLaws
import Idealize.ShloMosaic.Lib.ValueIdx

noncomputable section

open scoped BigOperators

namespace Cert.Energy

open Idealize.ShloMosaic Idealize.ShloMosaic.ValueIdx

/-- The factor one half, as the word both programs carry. -/
abbrev half : EReal := Ideal.ofBits .f32 0x3F000000#32
/-- The softening constant under the square root, as the word both programs carry. -/
abbrev eps : EReal := Ideal.ofBits .f32 0x358637BD#32

/-- One edge's term from the squared distance `q` of its end points, its rest length and its stiffness. -/
def springQ (q l k : EReal) : EReal :=
  k * (Ideal.sqrt (q + eps) - l) * (Ideal.sqrt (q + eps) - l)

/-- One edge's term from its two end points, its rest length and its stiffness. -/
def spring (a b : Fin 3 → EReal) (l k : EReal) : EReal :=
  springQ (∑ j : Fin 3, (a j - b j) * (a j - b j)) l k

variable (A B : Fin 8000000 → Fin 3 → EReal) (L K : Fin 8000000 → EReal)

/-- The term of edge number `e`, zero past the last edge. -/
def edgeN (e : ℕ) : EReal :=
  if h : e < 8000000 then spring (A ⟨e, h⟩) (B ⟨e, h⟩) (L ⟨e, h⟩) (K ⟨e, h⟩) else 0

/-- The energy: one half of the sum over all edges. -/
def energy : EReal := half * ∑ e ∈ Finset.range 8000000, edgeN A B L K e

/-- The halved sum of tile `t`: edges `5000 t … 5000 t + 4999`. -/
def tile (t : ℕ) : EReal := half * ∑ r ∈ Finset.range 5000, edgeN A B L K (5000 * t + r)

/-- The running total after tile `n`: zero plus the first halved tile sum, then one more per tile. -/
def running : ℕ → EReal
  | 0 => 0 + tile A B L K 0
  | n + 1 => running n + tile A B L K (n + 1)

theorem running_eq_sum : ∀ n : ℕ, running A B L K n = ∑ t ∈ Finset.range (n + 1), tile A B L K t
  | 0 => by simp [running]
  | n + 1 => by rw [running, running_eq_sum n, Finset.sum_range_succ _ (n + 1)]

/-- The running total after the last tile is the energy. -/
theorem running_last : running A B L K 1599 = energy A B L K := by
  rw [running_eq_sum]
  exact SumLaws.sum_scaled_tiles half SumLaws.half_nonneg SumLaws.half_ne_top (edgeN A B L K) 5000 1600

/-- A tile's sum over its 5,000 rows, each row's term read from blocks that hold rows `5000 t + r` of the
    arrays, is the sum of those edges' terms. -/
theorem tile_rows (t : ℕ) (ht : t < 1600)
    (x0 x1 : (⟨2, ![5000, 3]⟩ : Shape).Idx → EReal) (x2 x3 : (⟨2, ![5000, 1]⟩ : Shape).Idx → EReal)
    (h0 : ∀ (r : Fin 5000) (j : Fin 3) (h : 5000 * t + r.val < 8000000), x0 (ix2 r j) = A ⟨5000 * t + r.val, h⟩ j)
    (h1 : ∀ (r : Fin 5000) (j : Fin 3) (h : 5000 * t + r.val < 8000000), x1 (ix2 r j) = B ⟨5000 * t + r.val, h⟩ j)
    (h2 : ∀ (r : Fin 5000) (h : 5000 * t + r.val < 8000000), x2 (ix2 r (0 : Fin 1)) = L ⟨5000 * t + r.val, h⟩)
    (h3 : ∀ (r : Fin 5000) (h : 5000 * t + r.val < 8000000), x3 (ix2 r (0 : Fin 1)) = K ⟨5000 * t + r.val, h⟩) :
    half * ∑ r : Fin 5000, spring (fun j => x0 (ix2 r j)) (fun j => x1 (ix2 r j)) (x2 (ix2 r (0 : Fin 1))) (x3 (ix2 r (0 : Fin 1)))
      = tile A B L K t := by
  unfold tile
  rw [← Fin.sum_univ_eq_sum_range (fun r => edgeN A B L K (5000 * t + r)) 5000]
  refine congrArg (half * ·) (Finset.sum_congr rfl fun r _ => ?_)
  have h : 5000 * t + r.val < 8000000 := by have := r.isLt; omega
  unfold edgeN
  rw [dif_pos h, h2 r h, h3 r h]
  exact congrArg₂ (fun a b => spring a b _ _) (funext fun j => h0 r j h) (funext fun j => h1 r j h)

/-- The sum of all the edges' terms written over the edge index is the sum over the first 8,000,000 numbers. -/
theorem sum_edges :
    ∑ e : Fin 8000000, spring (A e) (B e) (L e) (K e) = ∑ e ∈ Finset.range 8000000, edgeN A B L K e := by
  rw [← Fin.sum_univ_eq_sum_range (fun e => edgeN A B L K e) 8000000]
  refine Finset.sum_congr rfl fun e _ => ?_
  unfold edgeN
  rw [dif_pos e.isLt]

end Cert.Energy

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibColumnSum.lean ====
/-
  GENERAL LEMMAS: a column `[a, 1]` summed along its first axis into `[1]` — what `sum(x, axis=0, keepdims=True)`
  of a column becomes in a vector program before the sum is cast back to `[1, 1]` — read at an index given by
  coordinates, and a sum over the indices of a one-axis array written over the coordinate.
  • `multiReduction_add_axis0_col_apply`: the sum of an `[a, 1]` column from the zero word, at its one index, is the sum
    of the column's entries;
  • `sum_idx1`: the sum over every index of an `[n]` array is the sum over `Fin n` of the array at `ix1`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The sum along the first axis of an `[a, 1]` column of extended reals, accumulated from the zero word: at its one
    index it is the sum of the column's entries. -/
theorem multiReduction_add_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext c
  match c with
  | ⟨0, _⟩ => exact Fin.ext rfl
  | ⟨1, _⟩ => exact Fin.ext (by show u.val = 0; omega)

/-- The sum over every index of a one-axis array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

end Idealize.ShloMosaic.ValueIdx

end
-- ==== Proof.TileValue.lean ====
/-
  What one grid point's body computes, at the ideal values, as a number: from the two blocks of end points
  `x0`, `x1` (5,000 rows of three coordinates), the blocks of rest lengths `x2` and stiffnesses `x3` (columns of
  5,000) and the running total `s` it finds, the body stores `s + ½ · Σᵣ k r · dl r · dl r` with
  `dl r = √(Σⱼ (x0 (r, j) − x1 (r, j))² + ε) − l r`: the lane sum of the squared differences kept as a column,
  the column of terms summed into one entry, halved and added. The reset stores the zero word, which is `0`.
-/
import proofs.«162063_j10230612099765_2_alg».proof.Proof.Gen.KernelIdeal.Skeleton
import proofs.«162063_j10230612099765_2_alg».proof.Proof.EnergySpec
import proofs.«162063_j10230612099765_2_alg».proof.Proof.LibKeepdims
import proofs.«162063_j10230612099765_2_alg».proof.Proof.LibColumnSum

noncomputable section

open scoped BigOperators

namespace Cert.KernelIdeal.TileValue

open Cert.KernelIdeal Cert.KernelIdeal.Gen Idealize.ShloMosaic Idealize.ShloMosaic.ValueIdx

/-- Row `r` of the squared differences, summed over its three coordinates and kept as a column entry. -/
theorem row_sq (x0 x1 : FVec Ideal S5000x3 .f32) (r : Fin 5000) :
    (shapeCast S5000x1 (multiReduction (F := Ideal) .add [1] S5000 (mulf (subf x0 x1) (subf x0 x1)) 0x00000000#32
        reduces_S5000x3_S5000 (.inl rfl) rfl) shapeCasts_S5000_S5000x1 : FVec Ideal S5000x1 .f32) (ix2 r (0 : Fin 1))
      = ∑ j : Fin 3, (x0 (ix2 r j) - x1 (ix2 r j)) * (x0 (ix2 r j) - x1 (ix2 r j)) :=
  (shapeCast_a_a1_apply _ _ r 0).trans (multiReduction_add_axis1_apply _ _ _ _ r)

/-- The reset stores zero. -/
theorem reset_apply : k0_pay1 (F := Ideal) (ix2 (0 : Fin 1) (0 : Fin 1)) = 0 := by
  unfold k0_pay1
  rw [shapeCast_self]
  exact Ideal.ofBits_zero_f32

/-- The accumulation: the running total plus one half of the tile's sum of terms. -/
theorem accumulate_apply (x0 x1 : Vec Ideal S5000x3 .f32) (x2 x3 : Vec Ideal S5000x1 .f32) (s : Vec Ideal S1x1 .f32) :
    k0_pay2 (F := Ideal) x0 x1 x2 x3 s (ix2 (0 : Fin 1) (0 : Fin 1))
      = s (ix2 (0 : Fin 1) (0 : Fin 1)) + Energy.half * ∑ r : Fin 5000,
          Energy.spring (fun j => x0 (ix2 r j)) (fun j => x1 (ix2 r j)) (x2 (ix2 r (0 : Fin 1))) (x3 (ix2 r (0 : Fin 1))) := by
  unfold k0_pay2
  simp only [shapeCast_self]
  refine congrArg (s (ix2 (0 : Fin 1) (0 : Fin 1)) + ·) (congrArg (Energy.half * ·) ?_)
  refine (shapeCast_a_a1_apply _ _ (0 : Fin 1) (0 : Fin 1)).trans ?_
  refine (multiReduction_add_axis0_col_apply _ _ _ _ (0 : Fin 1)).trans ?_
  refine Finset.sum_congr rfl fun r _ => ?_
  exact congrArg (fun q => Energy.springQ q (x2 (ix2 r (0 : Fin 1))) (x3 (ix2 r (0 : Fin 1)))) (row_sq x0 x1 r)

end Cert.KernelIdeal.TileValue

end
-- ==== Proof.KernelValue.lean ====
/-
  The kernel's result as a value. The scratch buffer the body carries from point to point holds, after point
  `n`, the accumulation of points `0 … n` (`total`: the first point's over the reset value, each later point's
  over the one before); the output block is written at the last point only, with the scratch's final contents,
  and that one block is the whole `[1, 1]` result array; the host then reshapes it to a scalar.
  At the ideal values the running total after point `n` is `Energy.running … n` of the four arrays the region
  finds (the two gathered point arrays, the rest lengths and the stiffnesses as columns), because block `t` of a
  window holds rows `5000 t … 5000 t + 4999` of its array.
-/
import proofs.«162063_j10230612099765_2_alg».proof.Proof.BodyPieces
import proofs.«162063_j10230612099765_2_alg».proof.Proof.TileValue
import proofs.«162063_j10230612099765_2_alg».proof.Proof.Gen.ReferenceIdeal.Read
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen

variable (m : (ℓ : Loc nD τ sig) → Buf (Elt Ideal) ℓ) (ρ : Dev nD → PrngReg)

/-! ## The running total, as the body's payloads -/

/-- The scratch after point `n`: the accumulation payload of the point's four blocks, over the reset payload at the
    first point and over the scratch after the point before at the others. -/
def total (c : Dev nD) : (n : ℕ) → n < cfg0.N → Vec Ideal S1x1 .f32
  | 0, h => k0_pay2 (iblk m c 0 ⟨0, h⟩) (iblk m c 1 ⟨0, h⟩) (iblk m c 2 ⟨0, h⟩) (iblk m c 3 ⟨0, h⟩) (k0_pay1 (F := Ideal))
  | n + 1, h => k0_pay2 (iblk m c 0 ⟨n + 1, h⟩) (iblk m c 1 ⟨n + 1, h⟩) (iblk m c 2 ⟨n + 1, h⟩) (iblk m c 3 ⟨n + 1, h⟩)
      (total c n (Nat.lt_of_succ_lt h))

/-- What the frame's proof data says the scratch holds after point `n` is that running total: by induction on the
    point, each case's pieces read back as the body's payload. -/
theorem scratch_eq (c : Dev nD) : ∀ (n : ℕ) (h : n < cfg0.N), (outsAt0 m c n h).2 = total m c n h
  | 0, h => by
    rw [outsAt0_A m c ⟨0, h⟩ rfl (by show ¬(0 : ℕ) % 1600 = 1599; decide)]
    dsimp only
    rw [BodyPieces.scratch_first]
    rfl
  | n + 1, h => by
    have hN : cfg0.N = 1600 := N_0
    have h0 : ¬(⟨n + 1, h⟩ : Fin cfg0.N).val % 1600 = 0 := by dsimp only; omega
    by_cases h1 : (⟨n + 1, h⟩ : Fin cfg0.N).val % 1600 = 1599
    · rw [outsAt0_C m c ⟨n + 1, h⟩ h0 h1]
      dsimp only
      rw [BodyPieces.scratch_last]
      show k0_pay2 _ _ _ _ (outsAt0 m c n _).2 = k0_pay2 _ _ _ _ (total m c n _)
      rw [scratch_eq c n]
    · rw [outsAt0_B m c ⟨n + 1, h⟩ h0 h1]
      dsimp only
      rw [BodyPieces.scratch_middle]
      show k0_pay2 _ _ _ _ (outsAt0 m c n _).2 = k0_pay2 _ _ _ _ (total m c n _)
      rw [scratch_eq c n]

/-- At the last point the output block is the scratch just written: the final total. -/
theorem out_eq (c : Dev nD) (n : ℕ) (h : n + 1 < cfg0.N) (h1 : (n + 1) % 1600 = 1599) :
    (outsAt0 m c (n + 1) h).1 = total m c (n + 1) h := by
  have hN : cfg0.N = 1600 := N_0
  have h0 : ¬(⟨n + 1, h⟩ : Fin cfg0.N).val % 1600 = 0 := by dsimp only; omega
  rw [outsAt0_C m c ⟨n + 1, h⟩ h0 h1]
  dsimp only
  rw [BodyPieces.out_last]
  show k0_pay2 _ _ _ _ (outsAt0 m c n _).2 = k0_pay2 _ _ _ _ (total m c n _)
  rw [scratch_eq m c n]

end Cert.KernelIdeal.Total

end
-- ==== Proof.ResultArray.lean ====
/-
  From the running total to the program's result. The output window's block is written back once, after the
  last grid point, and its one `[1, 1]` block at block index `(0, 0)` is the whole result array; so the array
  ends holding the total after the last point. The host operation after the region reshapes it to a scalar, and
  the argument arrays end as they began.
-/
import proofs.«162063_j10230612099765_2_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen

variable (m : (ℓ : Loc nD τ sig) → Buf (Elt Ideal) ℓ) (ρ : Dev nD → PrngReg)

/-- The last grid point. -/
def lastPt : Fin cfg0.N := ⟨1599, by rw [show cfg0.N = 1600 from N_0]; decide⟩

/-- The output window's block index is `(0, 0)` and its block is `[1, 1]`, at every point. -/
theorem out_block : ∀ t : Fin cfg0.N, (win0_4.index t 0 = 0 ∧ win0_4.index t 1 = 0)
    ∧ (win0_4.xsize (grid0.coords t) 0 = 1 ∧ win0_4.xsize (grid0.coords t) 1 = 1) :=
  (by decide +kernel : ∀ t : Fin grid0.N, (win0_4.index t 0 = 0 ∧ win0_4.index t 1 = 0)
    ∧ (win0_4.xsize (grid0.coords t) 0 = 1 ∧ win0_4.xsize (grid0.coords t) 1 = 1))

/-- The result array's final contents: the running total after the last point. -/
abbrev result (c : Dev nD) : Buf (Elt Ideal) ((c : Thread nD τ).loc main_v20) := total m c lastPt.val lastPt.isLt

/-- The one write-back writes the final total: the block read through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 1600 := N_0
  have hl : t.val = 1599 := by have := (flush0_4 t).mp hf; have := t.isLt; omega
  obtain rfl : t = lastPt := Fin.ext hl
  show (cfg0.win 4).cut (grid0.coords lastPt) ((dats m 0 c).after 4 lastPt) = _
  rw [after0_4, show (outsAt0 m c lastPt.val lastPt.isLt).1 = total m c lastPt.val lastPt.isLt from
    out_eq m c 1598 lastPt.isLt (by decide)]
  have hz' : (fun a => win0_4.index lastPt a * main_v20.ty.shape.size a) = fun _ => 0 := funext fun a => by
    match a with
    | ⟨0, _⟩ => show win0_4.index lastPt 0 * 1 = 0; rw [(out_block lastPt).1.1]
    | ⟨1, _⟩ => show win0_4.index lastPt 1 * 1 = 0; rw [(out_block lastPt).1.2]
  exact (Memref.read_access_unit_zero (Elt Ideal) main_v20 hz' (fun a => by rw [congrFun hz' a]; simp) (result m c)).symm

/-- So the result array ends holding the final total: the last point's block covers it. -/
theorem final_o (c : Dev nD) : (dats m 0 c).arrAt 4 cfg0.N = result m c :=
  (dats m 0 c).arrAt_eq_of_cover 4 (result m c) (flushed_eq m c) fun i =>
    ⟨lastPt, (flush0_4 lastPt).mpr (by decide), by
      show i ∈ ((View.whole main_v20).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [(out_block lastPt).1.1, (out_block lastPt).2.1]; omega
      | ⟨1, _⟩ => show win0_4.index lastPt 1 * win0_4.size 1 ≤ (i 1 : Nat) ∧ (i 1 : Nat) < win0_4.index lastPt 1 * win0_4.size 1 + win0_4.xsize (grid0.coords lastPt) 1
                  rw [(out_block lastPt).1.2, (out_block lastPt).2.2]; omega⟩

/-- The scalar the program returns: the result array reshaped. -/
abbrev scalar (c : Dev nD) : Buf (Elt Ideal) ((c : Thread nD τ).loc main_v21) :=
  shapeCast S_ (result m c) shapeCasts_S1x1_S_

/-- After the host operation that follows the region, the returned buffer holds that scalar. -/
theorem tail_eq (c : Dev nD) :
    Pipeline.afterTail₀ cfgs (dats m) 0 (V0 m) [hostOps1] c main_v21 = scalar m c := by
  unfold Pipeline.afterTail₀
  show StableHlo.after hostOps1 _ (Proc.devRef .tc main_v21) = _
  after_results
  have e := (Pipeline.withArrays_arr spec0 launch0.win.arr_inj c (V0 m c) (fun w => (dats m 0 c).arrAt w cfg0.N) 4).trans
    (final_o m c)
  exact congrArg (fun x => shapeCast S_ x shapeCasts_S1x1_S_) e

/-- The kernel's run, read: the returned scalar at the reshaped final total, the arguments unchanged. -/
theorem run : θ_run defs (onTc (τ := τ) (main (F := Ideal))) ⟨m, fun _ => 0, ρ⟩ fun r => ∀ c : Dev nD,
      r.2.mem ((c.tc : Thread nD τ).loc main_v21) = scalar m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Total

end
-- ==== Proof.BlockReads.lean ====
/-
  Where the kernel's inputs come from. Block `t` of each input window is block `(t, 0)` of its array, so its row
  `r` is row `5000 t + r` of the array. The four arrays are written by the host before the region: the two
  gathered point arrays are the same gathers of `x` by the two index columns (negative indices wrapped) that
  the reference computes, and the rest lengths and stiffnesses are the argument vectors reshaped to columns.
-/
import proofs.«162063_j10230612099765_2_alg».proof.Proof.Gen.KernelIdeal.Frame
import proofs.«162063_j10230612099765_2_alg».proof.Proof.Gen.ReferenceIdeal.Read
import proofs.«162063_j10230612099765_2_alg».proof.Proof.LibKeepdims
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- At point `t` every input window's block index is `(t, 0)`. -/
theorem in_block : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0))

/-- Row `r` of the first end points' block at point `t` is row `5000 t + r` of the first gathered array. -/
theorem blockA (c : Dev nD) (t : Fin cfg0.N) (r : Fin 5000) (j : Fin 3) (h : 5000 * t.val + r.val < 8000000) :
    (iblk m c 0 t : Vec Ideal S5000x3 .f32) (ix2 r j) = V m c main_v10 (ix2 ⟨5000 * t.val + r.val, h⟩ j) := by
  have hi := (in_block t).1
  unfold iblk
  rw [View.read_apply]
  show V m c main_v10 _ = V m c main_v10 _
  refine congrArg (V m c main_v10 : S8000000x3.Idx → EReal) (funext fun a => Fin.ext ?_)
  match a with
  | ⟨0, _⟩ => show win0_0.index t 0 * 5000 + 1 * r.val = 5000 * t.val + r.val; rw [hi.1]; omega
  | ⟨1, _⟩ => show win0_0.index t 1 * 3 + 1 * j.val = j.val; rw [hi.2]; omega

/-- The second end points likewise. -/
theorem blockB (c : Dev nD) (t : Fin cfg0.N) (r : Fin 5000) (j : Fin 3) (h : 5000 * t.val + r.val < 8000000) :
    (iblk m c 1 t : Vec Ideal S5000x3 .f32) (ix2 r j) = V m c main_v17 (ix2 ⟨5000 * t.val + r.val, h⟩ j) := by
  have hi := (in_block t).2.1
  unfold iblk
  rw [View.read_apply]
  show V m c main_v17 _ = V m c main_v17 _
  refine congrArg (V m c main_v17 : S8000000x3.Idx → EReal) (funext fun a => Fin.ext ?_)
  match a with
  | ⟨0, _⟩ => show win0_1.index t 0 * 5000 + 1 * r.val = 5000 * t.val + r.val; rw [hi.1]; omega
  | ⟨1, _⟩ => show win0_1.index t 1 * 3 + 1 * j.val = j.val; rw [hi.2]; omega

/-- Entry `r` of the rest lengths' block at point `t` is entry `5000 t + r` of the column. -/
theorem blockL (c : Dev nD) (t : Fin cfg0.N) (r : Fin 5000) (h : 5000 * t.val + r.val < 8000000) :
    (iblk m c 2 t : Vec Ideal S5000x1 .f32) (ix2 r (0 : Fin 1)) = V m c main_v18 (ix2 ⟨5000 * t.val + r.val, h⟩ (0 : Fin 1)) := by
  have hi := (in_block t).2.2.1
  unfold iblk
  rw [View.read_apply]
  show V m c main_v18 _ = V m c main_v18 _
  refine congrArg (V m c main_v18 : S8000000x1.Idx → EReal) (funext fun a => Fin.ext ?_)
  match a with
  | ⟨0, _⟩ => show win0_2.index t 0 * 5000 + 1 * r.val = 5000 * t.val + r.val; rw [hi.1]; omega
  | ⟨1, _⟩ => show win0_2.index t 1 * 1 + 1 * 0 = 0; rw [hi.2]

/-- The stiffnesses likewise. -/
theorem blockK (c : Dev nD) (t : Fin cfg0.N) (r : Fin 5000) (h : 5000 * t.val + r.val < 8000000) :
    (iblk m c 3 t : Vec Ideal S5000x1 .f32) (ix2 r (0 : Fin 1)) = V m c main_v19 (ix2 ⟨5000 * t.val + r.val, h⟩ (0 : Fin 1)) := by
  have hi := (in_block t).2.2.2
  unfold iblk
  rw [View.read_apply]
  show V m c main_v19 _ = V m c main_v19 _
  refine congrArg (V m c main_v19 : S8000000x1.Idx → EReal) (funext fun a => Fin.ext ?_)
  match a with
  | ⟨0, _⟩ => show win0_3.index t 0 * 5000 + 1 * r.val = 5000 * t.val + r.val; rw [hi.1]; omega
  | ⟨1, _⟩ => show win0_3.index t 1 * 1 + 1 * 0 = 0; rw [hi.2]

/-! ## The arrays the region finds -/

/-- The rest lengths' column is the argument vector reshaped. -/
theorem V_lens (c : Dev nD) : (V m c main_v18 : S8000000x1.Idx → EReal)
    = shapeCast S8000000x1 (m ((c : Thread nD τ).loc main_arg2)) shapeCasts_S8000000_S8000000x1 := by
  show StableHlo.after hostOps0 (fun b => m (c, b)) (Proc.devRef .tc main_v18) = _
  after_results
  rfl

/-- The stiffnesses' column is the argument vector reshaped. -/
theorem V_stiff (c : Dev nD) : (V m c main_v19 : S8000000x1.Idx → EReal)
    = shapeCast S8000000x1 (m ((c : Thread nD τ).loc main_arg3)) shapeCasts_S8000000_S8000000x1 := by
  show StableHlo.after hostOps0 (fun b => m (c, b)) (Proc.devRef .tc main_v19) = _
  after_results
  rfl

/-- The first gathered array is the reference's first gather of the same arguments. -/
theorem V_endA (c : Dev nD) : (V m c main_v10 : S8000000x3.Idx → EReal)
    = Cert.ReferenceIdeal.Read.val_main_v8 (F := Ideal) (m ((c : Thread nD τ).loc main_arg0)) (m ((c : Thread nD τ).loc main_arg1)) := by
  show StableHlo.after hostOps0 (fun b => m (c, b)) (Proc.devRef .tc main_v10) = _
  after_results
  rfl

/-- The second gathered array is the reference's second gather of the same arguments. -/
theorem V_endB (c : Dev nD) : (V m c main_v17 : S8000000x3.Idx → EReal)
    = Cert.ReferenceIdeal.Read.val_main_v17 (F := Ideal) (m ((c : Thread nD τ).loc main_arg0)) (m ((c : Thread nD τ).loc main_arg1)) := by
  show StableHlo.after hostOps0 (fun b => m (c, b)) (Proc.devRef .tc main_v17) = _
  after_results
  rfl

/-- Entry `e` of the rest lengths' column is entry `e` of the argument vector. -/
theorem lens_apply (c : Dev nD) (e : Fin 8000000) :
    V m c main_v18 (ix2 e (0 : Fin 1)) = m ((c : Thread nD τ).loc main_arg2) (ix1 e) :=
  (congrFun (V_lens m c) (ix2 e (0 : Fin 1))).trans (shapeCast_a_a1_apply _ _ e 0)

/-- Entry `e` of the stiffnesses' column is entry `e` of the argument vector. -/
theorem stiff_apply (c : Dev nD) (e : Fin 8000000) :
    V m c main_v19 (ix2 e (0 : Fin 1)) = m ((c : Thread nD τ).loc main_arg3) (ix1 e) :=
  (congrFun (V_stiff m c) (ix2 e (0 : Fin 1))).trans (shapeCast_a_a1_apply _ _ e 0)

end Cert.KernelIdeal.Blocks

end
-- ==== Proof.TotalValue.lean ====
/-
  The running total as a number. At the ideal values the scratch after point `n` holds `Energy.running … n` of the
  four arrays the region finds, read by edge and coordinate: each point adds one half of its tile's sum of spring
  terms, the tile's rows being rows `5000 t … 5000 t + 4999` of the arrays; the first point adds it to the reset's
  zero.
-/
import proofs.«162063_j10230612099765_2_alg».proof.Proof.KernelValue
import proofs.«162063_j10230612099765_2_alg».proof.Proof.BlockReads

noncomputable section

open scoped BigOperators
open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ)

/-- The first gathered array the region finds, by edge and coordinate. -/
def endA (c : Dev nD) : Fin 8000000 → Fin 3 → EReal := fun e j => V m c main_v10 (ix2 e j)
/-- The second gathered array, by edge and coordinate. -/
def endB (c : Dev nD) : Fin 8000000 → Fin 3 → EReal := fun e j => V m c main_v17 (ix2 e j)
/-- The rest lengths' column, by edge. -/
def lens (c : Dev nD) : Fin 8000000 → EReal := fun e => V m c main_v18 (ix2 e (0 : Fin 1))
/-- The stiffnesses' column, by edge. -/
def stiff (c : Dev nD) : Fin 8000000 → EReal := fun e => V m c main_v19 (ix2 e (0 : Fin 1))

/-- One half of the sum of point `t`'s rows' terms is the halved sum of tile `t` of the arrays. -/
theorem tile_eq (c : Dev nD) (t : Fin cfg0.N) :
    Energy.half * ∑ r : Fin 5000, Energy.spring (fun j => (iblk m c 0 t : Vec Ideal S5000x3 .f32) (ix2 r j))
        (fun j => (iblk m c 1 t : Vec Ideal S5000x3 .f32) (ix2 r j))
        ((iblk m c 2 t : Vec Ideal S5000x1 .f32) (ix2 r (0 : Fin 1))) ((iblk m c 3 t : Vec Ideal S5000x1 .f32) (ix2 r (0 : Fin 1)))
      = Energy.tile (endA m c) (endB m c) (lens m c) (stiff m c) t.val :=
  Energy.tile_rows (endA m c) (endB m c) (lens m c) (stiff m c) t.val (lt_of_lt_of_eq t.isLt (show cfg0.N = 1600 from N_0))
    (iblk m c 0 t) (iblk m c 1 t) (iblk m c 2 t) (iblk m c 3 t)
    (fun r j h => Blocks.blockA m c t r j h) (fun r j h => Blocks.blockB m c t r j h)
    (fun r h => Blocks.blockL m c t r h) (fun r h => Blocks.blockK m c t r h)

/-- The scratch after point `n`, at its one entry, is the running total of the energy's tiles. -/
theorem total_apply (c : Dev nD) : ∀ (n : ℕ) (h : n < cfg0.N),
    total m c n h (ix2 (0 : Fin 1) (0 : Fin 1)) = Energy.running (endA m c) (endB m c) (lens m c) (stiff m c) n
  | 0, h => by
    refine (TileValue.accumulate_apply (iblk m c 0 ⟨0, h⟩) (iblk m c 1 ⟨0, h⟩) (iblk m c 2 ⟨0, h⟩) (iblk m c 3 ⟨0, h⟩)
      (k0_pay1 (F := Ideal))).trans ?_
    rw [TileValue.reset_apply]
    exact congrArg ((0 : EReal) + ·) (tile_eq m c ⟨0, h⟩)
  | n + 1, h => by
    refine (TileValue.accumulate_apply (iblk m c 0 ⟨n + 1, h⟩) (iblk m c 1 ⟨n + 1, h⟩) (iblk m c 2 ⟨n + 1, h⟩)
      (iblk m c 3 ⟨n + 1, h⟩) (total m c n (Nat.lt_of_succ_lt h))).trans ?_
    rw [total_apply c n]
    exact congrArg (Energy.running (endA m c) (endB m c) (lens m c) (stiff m c) n + ·) (tile_eq m c ⟨n + 1, h⟩)

end Cert.KernelIdeal.Total

end
-- ==== Proof.RefRead.lean ====
/-
  The reference's result, read one operation at a time, is the energy of `EnergySpec`: one half times the sum
  over all 8,000,000 edges of `k · dl · dl` with `dl = √(|a − b|² + ε) − l`, the two end points `a`, `b` rows
  of the two gathered arrays. The host's sums start from the zero word, which is the extended real `0`; the
  host's square root is the kernel's function at the ideal values.
-/
import proofs.«162063_j10230612099765_2_alg».proof.Proof.Gen.ReferenceIdeal.Read
import proofs.«162063_j10230612099765_2_alg».proof.Proof.EnergySpec
import proofs.«162063_j10230612099765_2_alg».proof.Proof.LibColumnSum

noncomputable section

open scoped BigOperators

namespace Cert.RefRead

open Cert.ReferenceIdeal Cert.ReferenceIdeal.Read Idealize.ShloMosaic Idealize.ShloMosaic.ValueIdx

variable (x0 : (⟨S2000000x3, .f32⟩ : BufTy).Contents (Elt Ideal)) (x1 : (⟨S8000000x2, .i32⟩ : BufTy).Contents (Elt Ideal))
  (x2 x3 : (⟨S8000000, .f32⟩ : BufTy).Contents (Elt Ideal))

/-- The first gathered array (the edges' first end points), by edge and coordinate. -/
def endA : Fin 8000000 → Fin 3 → EReal := fun e j => val_main_v8 (F := Ideal) x0 x1 (ix2 e j)
/-- The second gathered array (the edges' second end points), by edge and coordinate. -/
def endB : Fin 8000000 → Fin 3 → EReal := fun e j => val_main_v17 (F := Ideal) x0 x1 (ix2 e j)

/-- Row `e` of the squared differences is summed over the three coordinates `(e, k)`. -/
theorem idx20 (e : Fin 8000000) (k : Fin 3) : idx_main_v20 (ix1 e) k = ix2 e k :=
  funext fun a => Fin.ext (by match a with | ⟨0, _⟩ => rfl | ⟨1, _⟩ => rfl)

/-- The reference's result is the energy of its two gathered arrays, the rest lengths and the stiffnesses. -/
theorem result_eq (i : S_.Idx) :
    val_main_v28 (F := Ideal) x0 x1 x2 x3 i
      = Energy.energy (endA x0 x1) (endB x0 x1) (fun e => x2 (ix1 e)) (fun e => x3 (ix1 e)) := by
  rw [val_main_v28_apply, val_main_v27_apply]
  unfold Energy.energy
  rw [← Energy.sum_edges, sum_idx1]
  show Energy.half * (Ideal.ofBits .f32 0x00000000#32 + _) = _
  rw [Ideal.ofBits_zero_f32, zero_add]
  refine congrArg (Energy.half * ·) (Finset.sum_congr rfl fun e _ => ?_)
  rw [val_main_v26_apply, val_main_v25_apply, val_main_v24_apply, val_main_v23_apply, val_main_v22_apply,
    val_main_v20_apply, val_main_v21_apply]
  simp only [val_main_cst_apply, val_main_cst_3_apply, val_main_v19_apply, val_main_v18_apply, idx20,
    Ideal.mulf_def, Ideal.subf_def, Ideal.addf_def, Ideal.hostUnary_sqrt_def, Ideal.ofBits_def,
    Ideal.ofBits_zero_f32, zero_add]
  rfl

end Cert.RefRead

end
-- ==== Proof.Claims.lean ====
/-
  The five claims. The three frames: the two kernel programs' frames are generated whole; the reference has no
  kernel, and its frame is its run with the result dropped. Nothing was rewritten by the idealization, so
  `preserves` is trivial. The algebraic claim: at the ideal values the kernel returns its final running total,
  which is the energy of the four arrays the region finds (`Energy.running_last`: one half, a nonnegative finite
  factor, moves out of the sum over the tiles, and the tiles' sums make up the sum over all edges); the reference
  returns the energy of its own four arrays (`RefRead.result_eq`); and the arrays are the same functions of
  arguments that agree — the same two gathers, the same two vectors.
-/
import proofs.«162063_j10230612099765_2_alg».proof.Defs
import proofs.«162063_j10230612099765_2_alg».proof.Proof.Gen.Kernel.Frame
import proofs.«162063_j10230612099765_2_alg».proof.Proof.Gen.Pre_finite_inputs
import proofs.«162063_j10230612099765_2_alg».proof.Proof.ResultArray
import proofs.«162063_j10230612099765_2_alg».proof.Proof.TotalValue
import proofs.«162063_j10230612099765_2_alg».proof.Proof.RefRead

noncomputable section

open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ)

/-- A `[1, 1]` array's only index. -/
theorem idx11 (y : (⟨2, ![1, 1]⟩ : Shape).Idx) : y = ix2 (0 : Fin 1) (0 : Fin 1) := by
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  rfl

/-- The returned scalar is the result array's one entry. -/
theorem scalar_apply (c : Dev nD) (i : S_.Idx) : scalar m c i = result m c (ix2 (0 : Fin 1) (0 : Fin 1)) := by
  show shapeCast S_ (result m c) shapeCasts_S1x1_S_ i = _
  unfold shapeCast
  exact congrArg (result m c) (idx11 _)

/-- The kernel's returned scalar is the reference's result term of the same arguments. -/
theorem scalar_eq_ref (c : Dev nD) :
    scalar m c = Cert.ReferenceIdeal.Read.val_main_v28 (F := Ideal) (m ((c.tc : Thread nD τ).loc main_arg0))
      (m ((c.tc : Thread nD τ).loc main_arg1)) (m ((c.tc : Thread nD τ).loc main_arg2)) (m ((c.tc : Thread nD τ).loc main_arg3)) := by
  funext i
  have hA : endA m c = Cert.RefRead.endA (m ((c.tc : Thread nD τ).loc main_arg0)) (m ((c.tc : Thread nD τ).loc main_arg1)) :=
    funext fun e => funext fun j => congrFun (Blocks.V_endA m c) (ix2 e j)
  have hB : endB m c = Cert.RefRead.endB (m ((c.tc : Thread nD τ).loc main_arg0)) (m ((c.tc : Thread nD τ).loc main_arg1)) :=
    funext fun e => funext fun j => congrFun (Blocks.V_endB m c) (ix2 e j)
  have hL : lens m c = fun e => m ((c.tc : Thread nD τ).loc main_arg2) (ix1 e) := funext fun e => Blocks.lens_apply m c e
  have hK : stiff m c = fun e => m ((c.tc : Thread nD τ).loc main_arg3) (ix1 e) := funext fun e => Blocks.stiff_apply m c e
  rw [scalar_apply, Cert.RefRead.result_eq]
  refine ((total_apply m c lastPt.val lastPt.isLt).trans (Energy.running_last _ _ _ _)).trans ?_
  rw [hA, hB, hL, hK]

end Cert.KernelIdeal.Total

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Total.scalar m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  exact (Cert.KernelIdeal.Total.scalar_eq_ref m c).symm

end Cert.Proof.Claims

end
-- ==== Proof.lean ====
/- The proof of `Cert.Claim`: a spring-energy kernel against its jnp reference, over the extended reals.
   Both programs gather the end points of 8,000,000 edges from `x` by the two index columns, take for each edge
   `k · (√(|a − b|² + ε) − l)²`, and return one half of the sum. The reference sums all the terms and halves once;
   the kernel goes through the edges in 1,600 tiles of 5,000, halves each tile's sum and adds it to a running
   total that starts at zero. Over the extended reals the two agree for every input, since one half is a
   nonnegative finite factor and such a factor distributes over a finite sum whatever the terms are.
   Proof/Claims.lean states the five claims; behind it: Proof/SumLaws.lean (the laws of sums), Proof/EnergySpec.lean
   (the energy and its two ways of summing), Proof/RefRead.lean (the reference is the energy), Proof/TileValue.lean
   and Proof/BodyPieces.lean (one grid point's arithmetic and what it leaves), Proof/KernelValue.lean,
   Proof/ResultArray.lean, Proof/BlockReads.lean and Proof/TotalValue.lean (the kernel's result is the running
   total of the same arrays). -/
import proofs.«162063_j10230612099765_2_alg».proof.Defs
import proofs.«162063_j10230612099765_2_alg».proof.Proof.Claims
import proofs.«162063_j10230612099765_2_alg».proof.Proof.Gen.Kernel
import proofs.«162063_j10230612099765_2_alg».proof.Proof.Gen.Kernel.Skeleton
import proofs.«162063_j10230612099765_2_alg».proof.Proof.Gen.Kernel.Launch
import proofs.«162063_j10230612099765_2_alg».proof.Proof.Gen.Kernel.Points
import proofs.«162063_j10230612099765_2_alg».proof.Proof.Gen.Kernel.Frame
import proofs.«162063_j10230612099765_2_alg».proof.Proof.Gen.KernelIdeal
import proofs.«162063_j10230612099765_2_alg».proof.Proof.Gen.KernelIdeal.Skeleton
import proofs.«162063_j10230612099765_2_alg».proof.Proof.Gen.KernelIdeal.Launch
import proofs.«162063_j10230612099765_2_alg».proof.Proof.Gen.KernelIdeal.Points
import proofs.«162063_j10230612099765_2_alg».proof.Proof.Gen.KernelIdeal.Frame
import proofs.«162063_j10230612099765_2_alg».proof.Proof.Gen.ReferenceIdeal
import proofs.«162063_j10230612099765_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
